-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x512 : Shape := ⟨2, ![4096, 512]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S4096x512 .f32) (main_arg2 : FVec F S4096x512 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x512 : Shape := ⟨2, ![4096, 512]⟩
abbrev S4096 : Shape := ⟨1, ![4096]⟩
abbrev S8192x4096 : Shape := ⟨2, ![8192, 4096]⟩
abbrev S512x4096 : Shape := ⟨2, ![512, 4096]⟩
abbrev S1x4096 : Shape := ⟨2, ![1, 4096]⟩
abbrev S256x4096 : Shape := ⟨2, ![256, 4096]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .f32⟩
  | .hbm, ⟨2, _⟩ => ⟨S4096x512, .f32⟩
  | .hbm, ⟨3, _⟩ => ⟨S4096, .f32⟩
  | .hbm, ⟨4, _⟩ => ⟨S8192x4096, .f32⟩
  | .hbm, ⟨5, _⟩ => ⟨S512x4096, .f32⟩
  | .hbm, ⟨6, _⟩ => ⟨S512x4096, .bf16⟩
  | .hbm, ⟨7, _⟩ => ⟨S4096x512, .bf16⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S512x4096, .bf16⟩
  | .local _ .vmem, ⟨3, _⟩ => ⟨S4096x512, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x4096_S8192x4096 : S4x2048x4096.ShapeCasts S8192x4096
  transposes_S4096x512_S512x4096_1_0 : S4096x512.Transposes [1, 0] S512x4096
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x512_S256x512_1_0_0_1_n_n_wf : DotDims.WF S256x4096 S4096x512 S256x512 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .bf16 = 32 ∨ (Rect.block (s := S512x4096) S512x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x512 : Shape := ⟨2, ![4096, 512]⟩
abbrev S4096 : Shape := ⟨1, ![4096]⟩
abbrev S512x4096 : Shape := ⟨2, ![512, 4096]⟩
abbrev S4096x4096 : Shape := ⟨2, ![4096, 4096]⟩
abbrev S1x1x4096 : Shape := ⟨3, ![1, 1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .f32⟩
  | .hbm, ⟨2, _⟩ => ⟨S4096x512, .f32⟩
  | .hbm, ⟨3, _⟩ => ⟨S4096, .f32⟩
  | .hbm, ⟨4, _⟩ => ⟨S512x4096, .f32⟩
  | .hbm, ⟨5, _⟩ => ⟨S4096x4096, .f32⟩
  | .hbm, ⟨6, _⟩ => ⟨S4x2048x4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x512_S512x4096_S4096x4096_1_0_0_1_n_n_wf : DotDims.WF S4096x512 S512x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KernelBlock.lean ====
/-
  What the kernel body stores at one entry of its output block.

  At a grid point the body holds a block of 256 rows of the flattened input (256 × 4096), the whole factor B
  (4096 × 512), the whole transposed factor Aᵀ (512 × 4096) and the bias row (1 × 4096). It multiplies the rows by B
  into a zero accumulator (256 × 512), multiplies that by Aᵀ into a zero accumulator (256 × 4096) and adds the bias row
  broadcast down the 256 rows. On the extended reals a change of float format is the identity, a product into the zero
  accumulator is the plain sum over the contracted axis, and the casts of a shape to itself do nothing, so the stored
  entry (p, q) is ∑ r, (∑ d, rows(p, d) · B(d, r)) · Aᵀ(r, q) + bias(0, q).
-/
import proofs.«175026_j15281493639938_2_alg».proof.Proof.Gen.KernelIdeal.Skeleton
import proofs.«175026_j15281493639938_2_alg».proof.Proof.LibPlainDot
import proofs.«175026_j15281493639938_2_alg».proof.Proof.LibRowBroadcasts
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen
open Idealize.ShloMosaic Idealize.ShloMosaic.ValueIdx

/-- The first product: the rows' block times B into the zero accumulator, at (p, r). -/
theorem projected_apply (x0 : FVec Ideal S256x4096 .f32) (bB : FVec Ideal S4096x512 .bf16) (p : Fin 256) (r : Fin 512) :
    matmul (F := Ideal) dot_S256x4096_S4096x512_S256x512_1_0_0_1_n_n none
        (truncf .bf16 (shapeCast S256x4096 x0 shapeCasts_S256x4096_S256x4096) bitsLt_bf16_f32)
        (shapeCast S4096x512 bB shapeCasts_S4096x512_S4096x512) (constant S256x512 .f32 0x00000000#32) (ix2 p r)
      = ∑ d : Fin 4096, x0 (ix2 p d) * bB (ix2 d r) := by
  rw [shapeCast_self, shapeCast_self]
  exact Cert.Lib.PlainDot.matmul_zero_apply dot_S256x4096_S4096x512_S256x512_1_0_0_1_n_n_wf none _ _ p r

/-- The stored value at (p, q). -/
theorem stored_apply (x0 : FVec Ideal S256x4096 .f32) (bB : FVec Ideal S4096x512 .bf16) (aT : FVec Ideal S512x4096 .bf16)
    (b2 : FVec Ideal S1x4096 .f32) (p : Fin 256) (q : Fin 4096) :
    k0_pay1 (F := Ideal) x0 bB aT b2 (ix2 p q)
      = (∑ r : Fin 512, (∑ d : Fin 4096, x0 (ix2 p d) * bB (ix2 d r)) * aT (ix2 r q)) + b2 (ix2 (0 : Fin 1) q) := by
  unfold k0_pay1
  rw [addf_apply, shapeCast_self aT, shapeCast_self b2]
  refine congrArg₂ (· + ·) ?_ (Cert.Lib.Rows.bcastRow_apply b2 broadcasts_S1x4096_S256x4096 p q)
  refine (Cert.Lib.PlainDot.matmul_zero_apply dot_S256x512_S512x4096_S256x4096_1_0_0_1_n_n_wf none _ _ p q).trans ?_
  exact Finset.sum_congr rfl fun r _ => congrArg (· * aT (ix2 r q)) (projected_apply x0 bB p r)

end Cert.KernelIdeal.Block

end
-- ==== Proof.KernelBlocksAt.lean ====
/-
  Where the kernel's blocks sit in their arrays.

  The grid has 32 points. At point t the rows' window and the output's window are at block (t, 0): entry (p, ·) of the
  256-row block is entry (256·t + p, ·) of the 8192-row array. The factor B, the transposed factor Aᵀ and the bias row
  are at block (0, 0) at every point and their block is the whole array. Row P of the output lies in the block of
  point P / 256, so the 32 output blocks cover the output array.
-/
import proofs.«175026_j15281493639938_2_alg».proof.Proof.Gen.KernelIdeal.Frame
import Idealize.ShloMosaic.Lib.Pipeline.Value
import Idealize.ShloMosaic.Lib.ValueIdx
import Idealize.ShloMosaic.PureOps.Ideal

noncomputable section

open scoped BigOperators

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

theorem zero_offsets : (![0, 0] : Fin 2 → Nat) = fun _ => 0 := funext fun a => by fin_cases a <;> rfl

/-- The printed index maps over the grid: the rows' window and the output's window are at block (t, 0) at point t, the
    three resident windows at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 32 := lt_of_lt_of_eq t.isLt N_0

/-! ## Where each block sits in its array -/

/-- Entry (p, d) of the rows' block at point t is entry (256·t + p, d) of the flattened input. -/
theorem rows_at (t : Fin cfg0.N) (p : Fin 256) (d : Fin 4096) (P : Fin 8192) (hP : P.val = t.val * 256 + p.val) :
    ((cfg0.win 0).blk t).view.emb (ix2 p d) = (ix2 P d : S8192x4096.Idx) := by
  obtain ⟨e0, e1, -⟩ := block_indices t
  funext a; apply Fin.ext
  match a with
  | ⟨0, _⟩ => show win0_0.index t (0 : Fin 2) * 256 + 1 * p.val = P.val; rw [e0, hP]; omega
  | ⟨1, _⟩ => show win0_0.index t (1 : Fin 2) * 4096 + 1 * d.val = d.val; rw [e1]; omega

/-- The transposed factor's block is the whole array. -/
theorem factorT_at (t : Fin cfg0.N) (r : Fin 512) (q : Fin 4096) :
    ((cfg0.win 1).blk t).view.emb (ix2 r q) = (ix2 r q : S512x4096.Idx) := by
  obtain ⟨-, -, e0, e1, -⟩ := block_indices t
  funext a; apply Fin.ext
  match a with
  | ⟨0, _⟩ => show win0_1.index t (0 : Fin 2) * 512 + 1 * r.val = r.val; rw [e0]; omega
  | ⟨1, _⟩ => show win0_1.index t (1 : Fin 2) * 4096 + 1 * q.val = q.val; rw [e1]; omega

/-- The factor B's block is the whole array. -/
theorem factor_at (t : Fin cfg0.N) (d : Fin 4096) (r : Fin 512) :
    ((cfg0.win 2).blk t).view.emb (ix2 d r) = (ix2 d r : S4096x512.Idx) := by
  obtain ⟨-, -, -, -, e0, e1, -⟩ := block_indices t
  funext a; apply Fin.ext
  match a with
  | ⟨0, _⟩ => show win0_2.index t (0 : Fin 2) * 4096 + 1 * d.val = d.val; rw [e0]; omega
  | ⟨1, _⟩ => show win0_2.index t (1 : Fin 2) * 512 + 1 * r.val = r.val; rw [e1]; omega

/-- The bias row's block is the whole row. -/
theorem bias_at (t : Fin cfg0.N) (u : Fin 1) (q : Fin 4096) :
    ((cfg0.win 3).blk t).view.emb (ix2 u q) = (ix2 u q : S1x4096.Idx) := by
  obtain ⟨-, -, -, -, -, -, e0, e1, -⟩ := block_indices t
  funext a; apply Fin.ext
  match a with
  | ⟨0, _⟩ => show win0_3.index t (0 : Fin 2) * 1 + 1 * u.val = u.val; rw [e0]; omega
  | ⟨1, _⟩ => show win0_3.index t (1 : Fin 2) * 4096 + 1 * q.val = q.val; rw [e1]; omega

/-- Entry (p, q) of the output's block at point t is entry (256·t + p, q) of the output array. -/
theorem out_at (t : Fin cfg0.N) (p : Fin 256) (q : Fin 4096) (P : Fin 8192) (hP : P.val = t.val * 256 + p.val) :
    ((cfg0.win 4).blk t).view.emb (ix2 p q) = (ix2 P q : S8192x4096.Idx) := by
  obtain ⟨-, -, -, -, -, -, -, -, e0, e1⟩ := block_indices t
  funext a; apply Fin.ext
  match a with
  | ⟨0, _⟩ => show win0_4.index t (0 : Fin 2) * 256 + 1 * p.val = P.val; rw [e0, hP]; omega
  | ⟨1, _⟩ => show win0_4.index t (1 : Fin 2) * 4096 + 1 * q.val = q.val; rw [e1]; omega

/-! ## The output's blocks cover its array -/

/-- An index of the output array is in point t's block iff each coordinate is in the block's range on its axis. -/
theorem mem_block (t : Fin cfg0.N) (i : S8192x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v5).slice (win0_4.rect t)).set ↔ _
  rw [View.set_slice_whole, Rect.mem_set_unit]
  exact Iff.rfl

/-- Row P lies in the block of point P / 256: the blocks cover the output array. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 32 := N_0
  have ht : (i 0).val / 256 < cfg0.N := by rw [hN]; omega
  obtain ⟨-, -, -, -, -, -, -, -, e0, e1⟩ := block_indices ⟨(i 0).val / 256, ht⟩
  refine ⟨⟨(i 0).val / 256, ht⟩, flush0_4 _, ?_⟩
  rw [mem_block]
  intro a
  match a with
  | ⟨0, _⟩ =>
    show win0_4.index ⟨(i 0).val / 256, ht⟩ (0 : Fin 2) * 256 ≤ (i 0).val
      ∧ (i 0).val < win0_4.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_4.index ⟨(i 0).val / 256, ht⟩ (1 : Fin 2) * 4096 ≤ (i 1).val
      ∧ (i 1).val < win0_4.index ⟨(i 0).val / 256, ht⟩ (1 : Fin 2) * 4096 + 4096
    rw [e1]
    omega

end Cert.KernelIdeal.Whole

end
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.LowRankLaw.lean ====
/-
  A low-rank linear map applied in two orders.

  A weight matrix is given by two factors, W(o, d) = ∑ r, A(o, r) · B(d, r). Applied to a row x it gives, at output
  feature o, either ∑ d, x(d) · W(o, d) — build the weight, then contract the input features — or
  ∑ r, (∑ d, x(d) · B(d, r)) · A(o, r) — project the row onto the rank axis, then expand. Both are the double sum of
  the terms x(d) · B(d, r) · A(o, r), summed in a different order and grouping; the identity is distributivity of the
  product over a finite sum, twice, and an exchange of the two sums.

  On the extended reals the product does not distribute over the sum at the infinities (∞ · (1 + (-1)) is 0 while
  ∞ · 1 + ∞ · (-1) is ∞ - ∞), so the identity is stated for real data, where every partial sum is a real.
-/
import Mathlib.Data.EReal.Basic
import Mathlib.Algebra.BigOperators.Ring.Finset
import Mathlib.Algebra.BigOperators.Group.Finset.Sigma
import Mathlib.Tactic.Ring
import proofs.«175026_j15281493639938_2_alg».proof.Proof.LibERealSums

noncomputable section

open scoped BigOperators

namespace Cert.LowRank

/-- Over the reals: projecting onto the rank axis and expanding equals contracting with the assembled weight. -/
theorem through_rank_real {D R : Type*} [Fintype D] [Fintype R] (x : D → ℝ) (B : D → R → ℝ) (A : R → ℝ) :
    ∑ r, (∑ d, x d * B d r) * A r = ∑ d, x d * ∑ r, A r * B d r := by
  simp only [Finset.sum_mul, Finset.mul_sum]
  rw [Finset.sum_comm]
  exact Finset.sum_congr rfl fun d _ => Finset.sum_congr rfl fun r _ => by ring

/-- The same identity on the extended reals, for real data: every product and every finite sum of coerced reals is
    the coercion of the real product or sum, so both sides are the coercion of the two sides above. -/
theorem through_rank_coe {D R : Type*} [Fintype D] [Fintype R] (x : D → ℝ) (B : D → R → ℝ) (A : R → ℝ) :
    ∑ r, (∑ d, ((x d : ℝ) : EReal) * ((B d r : ℝ) : EReal)) * ((A r : ℝ) : EReal)
      = ∑ d, ((x d : ℝ) : EReal) * ∑ r, ((A r : ℝ) : EReal) * ((B d r : ℝ) : EReal) := by
  simp only [← EReal.coe_mul, Cert.Lib.ERealSums.coe_sum_real]
  rw [EReal.coe_eq_coe_iff]
  exact through_rank_real x B A

end Cert.LowRank

end
-- ==== Proof.LowRankSpec.lean ====
/-
  The low-rank linear layer over the literal shapes: a batch of 4 sequences of 2048 rows of 4096 input features, factors
  A and B of 4096 × 512 (rank 512) and a bias of 4096 output features.

  `denseAt` is the layer as the weight is first assembled: entry (b, s, o) is
  ∑ d, x(b, s, d) · (∑ r, A(o, r) · B(d, r)) + bias(o).
  `throughRankAt` is the same entry computed through the rank axis: ∑ r, (∑ d, x(b, s, d) · B(d, r)) · A(o, r) + bias(o).
  `rowsAt` is the second form as a tiled computation sees it, on the operands already re-laid: the rows flattened to
  8192 × 4096, A transposed to 512 × 4096, the bias a 1 × 4096 row.
  For real x, A and B the two forms agree (the bias is only added, so it may be any extended real).
-/
import Idealize.ShloMosaic.Lib.ValueIdx
import Idealize.ShloMosaic.PureOps.Ideal
import proofs.«175026_j15281493639938_2_alg».proof.Proof.LowRankLaw

noncomputable section

open scoped BigOperators

namespace Cert.LowRank

open Idealize.ShloMosaic Idealize.ShloMosaic.ValueIdx

/-- Every entry of an array of extended reals is a real number. -/
def IsReal {ι : Type} (f : ι → EReal) : Prop := ∀ j, ∃ r : ℝ, f j = (r : EReal)

/-- A real-valued array is the coercion of an array of reals. -/
theorem IsReal.lift {ι : Type} {f : ι → EReal} (h : IsReal f) : ∃ g : ι → ℝ, ∀ j, f j = ((g j : ℝ) : EReal) :=
  ⟨fun j => (h j).choose, fun j => (h j).choose_spec⟩

variable (x : (⟨3, ![4, 2048, 4096]⟩ : Shape).Idx → EReal) (A B : (⟨2, ![4096, 512]⟩ : Shape).Idx → EReal)
  (bias : (⟨1, ![4096]⟩ : Shape).Idx → EReal)

/-- Entry (b, s, o) with the weight assembled first. -/
def denseAt (b : Fin 4) (s : Fin 2048) (o : Fin 4096) : EReal :=
  (∑ d : Fin 4096, x (ix3 b s d) * ∑ r : Fin 512, A (ix2 o r) * B (ix2 d r)) + bias (ix1 o)

/-- Entry (b, s, o) through the rank axis. -/
def throughRankAt (b : Fin 4) (s : Fin 2048) (o : Fin 4096) : EReal :=
  (∑ r : Fin 512, (∑ d : Fin 4096, x (ix3 b s d) * B (ix2 d r)) * A (ix2 o r)) + bias (ix1 o)

/-- The layer's output array, weight assembled first. -/
def dense : (⟨3, ![4, 2048, 4096]⟩ : Shape).Idx → EReal := fun i => denseAt x A B bias (i 0) (i 1) (i 2)

/-- For real x, A and B the two arrangements give the same entry. -/
theorem throughRankAt_eq_denseAt (hx : IsReal x) (hA : IsReal A) (hB : IsReal B) (b : Fin 4) (s : Fin 2048)
    (o : Fin 4096) : throughRankAt x A B bias b s o = denseAt x A B bias b s o := by
  obtain ⟨x', hx'⟩ := hx.lift
  obtain ⟨A', hA'⟩ := hA.lift
  obtain ⟨B', hB'⟩ := hB.lift
  unfold throughRankAt denseAt
  simp only [hx', hA', hB']
  exact congrArg (· + bias (ix1 o))
    (through_rank_coe (fun d : Fin 4096 => x' (ix3 b s d)) (fun (d : Fin 4096) (r : Fin 512) => B' (ix2 d r))
      (fun r : Fin 512 => A' (ix2 o r)))

/-- Entry (p, q) of the tiled computation on the re-laid operands: rows `X` of 8192 × 4096, the transposed factor
    `At` of 512 × 4096, the factor `Bm` of 4096 × 512, the bias row `b2` of 1 × 4096. -/
def rowsAt (X : (⟨2, ![8192, 4096]⟩ : Shape).Idx → EReal) (At : (⟨2, ![512, 4096]⟩ : Shape).Idx → EReal)
    (Bm : (⟨2, ![4096, 512]⟩ : Shape).Idx → EReal) (b2 : (⟨2, ![1, 4096]⟩ : Shape).Idx → EReal) (p : Fin 8192)
    (q : Fin 4096) : EReal :=
  (∑ r : Fin 512, (∑ d : Fin 4096, X (ix2 p d) * Bm (ix2 d r)) * At (ix2 r q)) + b2 (ix2 (0 : Fin 1) q)

/-- The tiled computation's whole output array. -/
def rows (X : (⟨2, ![8192, 4096]⟩ : Shape).Idx → EReal) (At : (⟨2, ![512, 4096]⟩ : Shape).Idx → EReal)
    (Bm : (⟨2, ![4096, 512]⟩ : Shape).Idx → EReal) (b2 : (⟨2, ![1, 4096]⟩ : Shape).Idx → EReal) :
    (⟨2, ![8192, 4096]⟩ : Shape).Idx → EReal := fun i => rowsAt X At Bm b2 (i 0) (i 1)

end Cert.LowRank

end
-- ==== Proof.KernelArray.lean ====
/-
  From the kernel's blocks to its whole output array.

  At point t the body sees rows 256·t … 256·t + 255 of the flattened input, the whole of B, of Aᵀ and of the bias row, and
  writes back rows 256·t … 256·t + 255 of the 8192 × 4096 output. So what point t writes back is block t of ONE
  function of the four arrays as the region finds them — `rows`: entry (P, q) is
  ∑ r, (∑ d, X(P, d) · B(d, r)) · Aᵀ(r, q) + bias(0, q) — and since the 32 blocks cover the array, after the region it
  holds `rows` of those four arrays.
-/
import proofs.«175026_j15281493639938_2_alg».proof.Proof.Gen.KernelIdeal.Frame
import proofs.«175026_j15281493639938_2_alg».proof.Proof.KernelBlock
import proofs.«175026_j15281493639938_2_alg».proof.Proof.KernelBlocksAt
import proofs.«175026_j15281493639938_2_alg».proof.Proof.LowRankSpec
import Idealize.ShloMosaic.Lib.Pipeline.Value
import Idealize.ShloMosaic.Lib.ValueIdx
import Idealize.ShloMosaic.PureOps.Ideal

noncomputable section

open scoped BigOperators

namespace Cert.KernelIdeal.Whole

open Cert.KernelIdeal Cert.KernelIdeal.Gen Cert.LowRank
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Each input block read in its array -/

/-- The rows' block at point t, at (p, d), is the flattened input at (256·t + p, d). -/
theorem rows_block (c : Dev nD) (t : Fin cfg0.N) (p : Fin 256) (d : Fin 4096) (P : Fin 8192)
    (hP : P.val = t.val * 256 + p.val) : iblk m c 0 t (ix2 p d) = V m c main_v0 (ix2 P d) := by
  unfold iblk
  rw [View.read_apply]
  show V m c main_v0 (((cfg0.win 0).blk t).view.emb (ix2 p d)) = V m c main_v0 (ix2 P d)
  rw [rows_at t p d P hP]

/-- The transposed factor's block is the transposed factor. -/
theorem factorT_block (c : Dev nD) (t : Fin cfg0.N) (r : Fin 512) (q : Fin 4096) :
    iblk m c 1 t (ix2 r q) = V m c main_v2 (ix2 r q) := by
  unfold iblk
  rw [View.read_apply]
  show V m c main_v2 (((cfg0.win 1).blk t).view.emb (ix2 r q)) = V m c main_v2 (ix2 r q)
  rw [factorT_at t r q]

/-- The factor's block is the factor. -/
theorem factor_block (c : Dev nD) (t : Fin cfg0.N) (d : Fin 4096) (r : Fin 512) :
    iblk m c 2 t (ix2 d r) = V m c main_v3 (ix2 d r) := by
  unfold iblk
  rw [View.read_apply]
  show V m c main_v3 (((cfg0.win 2).blk t).view.emb (ix2 d r)) = V m c main_v3 (ix2 d r)
  rw [factor_at t d r]

/-- The bias row's block is the bias row. -/
theorem bias_block (c : Dev nD) (t : Fin cfg0.N) (q : Fin 4096) :
    iblk m c 3 t (ix2 (0 : Fin 1) q) = V m c main_v4 (ix2 (0 : Fin 1) q) := by
  unfold iblk
  rw [View.read_apply]
  show V m c main_v4 (((cfg0.win 3).blk t).view.emb (ix2 (0 : Fin 1) q)) = V m c main_v4 (ix2 (0 : Fin 1) q)
  rw [bias_at t 0 q]

/-! ## What a point writes back -/

/-- The output array as one function of the four arrays the region finds. -/
def result (c : Dev nD) : S8192x4096.Idx → EReal :=
  rows (V m c main_v0) (V m c main_v2) (V m c main_v3) (V m c main_v4)

theorem result_apply (c : Dev nD) (P : Fin 8192) (q : Fin 4096) :
    result m c (ix2 P q) = rowsAt (V m c main_v0) (V m c main_v2) (V m c main_v3) (V m c main_v4) P q := rfl

/-- The body's stored value at (p, q), over the point's blocks, is `result` at (256·t + p, q). -/
theorem stored_eq (c : Dev nD) (t : Fin cfg0.N) (p : Fin 256) (q : Fin 4096) (P : Fin 8192)
    (hP : P.val = t.val * 256 + p.val) :
    k0_pay1 (F := Ideal) (iblk m c 0 t) (iblk m c 2 t) (iblk m c 1 t) (iblk m c 3 t) (ix2 p q) = result m c (ix2 P q) := by
  refine (Block.stored_apply (iblk m c 0 t) (iblk m c 2 t) (iblk m c 1 t) (iblk m c 3 t) p q).trans ?_
  rw [result_apply]
  unfold rowsAt
  refine congrArg₂ (· + ·) (Finset.sum_congr rfl fun r _ => congrArg₂ (· * ·)
    (Finset.sum_congr rfl fun d _ => congrArg₂ (· * ·) (rows_block m c t p d P hP) (factor_block m c t d r))
    (factorT_block m c t r q)) (bias_block m c t q)

/-- What point t writes back is block t of `result`. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero zero_offsets]
  simp only [View.ld_unit_zero (S := S256x4096) zero_offsets, View.ld_unit_zero (S := S4096x512) zero_offsets,
    View.ld_unit_zero (S := S512x4096) zero_offsets, View.ld_unit_zero (S := S1x4096) zero_offsets]
  funext j
  obtain ⟨p, q, rfl⟩ : ∃ (p : Fin 256) (q : Fin 4096), j = ix2 p q := ⟨j 0, j 1, eq_ix2 j⟩
  have hP : t.val * 256 + p.val < 8192 := by have := point_lt t; omega
  show k0_pay1 (iblk m c 0 t) (iblk m c 2 t) (iblk m c 1 t) (iblk m c 3 t) (ix2 p q)
    = result m c (((cfg0.win 4).blk t).view.emb (ix2 p q))
  rw [out_at t p q ⟨t.val * 256 + p.val, hP⟩ rfl]
  exact stored_eq m c t p q ⟨t.val * 256 + p.val, hP⟩ rfl

/-! ## The array after the region -/

/-- After the region the output array holds `result`. -/
theorem array_eq (c : Dev nD) : (dats m 0 c).arrAt 4 cfg0.N = result m c :=
  (dats m 0 c).arrAt_eq_of_cover 4 (result m c) (fun t _ => flushed_eq m c t) covered

end Cert.KernelIdeal.Whole

end
-- ==== Proof.KernelResult.lean ====
/-
  The kernel program's result as a function of its four arguments.

  Before the region the host flattens x to 8192 × 4096 (row 2048·b + s is the row (b, s)), transposes A to 512 × 4096,
  changes the format of Aᵀ and of B (the identity on the extended reals) and reshapes the bias to a 1 × 4096 row; after
  the region it reshapes the 8192 × 4096 output back to 4 × 2048 × 4096. Reading the region's output array `rows` through
  these: entry (b, s, o) of the result is ∑ r, (∑ d, x(b, s, d) · B(d, r)) · A(o, r) + bias(o), the layer computed through
  the rank axis; for real x, A and B that is the layer with the weight assembled first.
-/
import proofs.«175026_j15281493639938_2_alg».proof.Proof.Gen.KernelIdeal.Frame
import proofs.«175026_j15281493639938_2_alg».proof.Proof.KernelArray
import proofs.«175026_j15281493639938_2_alg».proof.Proof.LowRankSpec
import Idealize.ShloMosaic.Lib.StableHlo.Run
import Idealize.ShloMosaic.Lib.Pipeline.Value
import Idealize.ShloMosaic.Lib.ValueIdx
import Idealize.ShloMosaic.Lib.Tactic
import Idealize.ShloMosaic.PureOps.Ideal

noncomputable section

open scoped BigOperators

namespace Cert.KernelIdeal.Result

open Cert.KernelIdeal Cert.KernelIdeal.Gen Cert.LowRank
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The four arrays the region finds, read at an index -/

/-- The flattened input at (2048·b + s, d) is x at (b, s, d). -/
theorem flat_apply (c : Dev nD) (b : Fin 4) (s : Fin 2048) (d : Fin 4096) (P : Fin 8192)
    (hP : P.val = b.val * 2048 + s.val) :
    (V m c main_v0 : S8192x4096.Idx → EReal) (ix2 P d)
      = (m ((c : Thread nD τ).loc main_arg0) : S4x2048x4096.Idx → EReal) (ix3 b s d) := by
  have e : (V m c main_v0 : S8192x4096.Idx → EReal)
      = shapeCast S8192x4096 (m ((c : Thread nD τ).loc main_arg0) : S4x2048x4096.Idx → EReal)
          shapeCasts_S4x2048x4096_S8192x4096 := by
    show StableHlo.after hostOps0 (fun b => m (c, b)) (Proc.devRef .tc main_v0) = _
    after_results
    rfl
  rw [e]
  refine shapeCast_apply _ _ _ _ ?_
  show (S4x2048x4096.rowMajor (ix3 b s d)).val = (S8192x4096.rowMajor (ix2 P d)).val
  rw [Shape.rowMajor_val_three, Shape.rowMajor_val_two]
  show (b.val * 2048 + s.val) * 4096 + d.val = P.val * 4096 + d.val
  rw [hP]

/-- The transposed factor at (r, o) is A at (o, r). -/
theorem factorT_apply (c : Dev nD) (r : Fin 512) (o : Fin 4096) :
    (V m c main_v2 : S512x4096.Idx → EReal) (ix2 r o)
      = (m ((c : Thread nD τ).loc main_arg1) : S4096x512.Idx → EReal) (ix2 o r) := by
  have e : (V m c main_v2 : S512x4096.Idx → EReal)
      = transpose S512x4096 [1, 0] (m ((c : Thread nD τ).loc main_arg1) : S4096x512.Idx → EReal)
          transposes_S4096x512_S512x4096_1_0 := by
    show StableHlo.after hostOps0 (fun b => m (c, b)) (Proc.devRef .tc main_v2) = _
    after_results
    rfl
  rw [e]
  exact transpose_apply [1, 0] _ transposes_S4096x512_S512x4096_1_0 (ix2 r o) (ix2 o r) (fun a => match a with
    | ⟨0, _⟩ => rfl
    | ⟨1, _⟩ => rfl)

/-- The factor the region finds is B. -/
theorem factor_apply (c : Dev nD) (d : Fin 4096) (r : Fin 512) :
    (V m c main_v3 : S4096x512.Idx → EReal) (ix2 d r)
      = (m ((c : Thread nD τ).loc main_arg2) : S4096x512.Idx → EReal) (ix2 d r) := by
  have e : (V m c main_v3 : S4096x512.Idx → EReal) = (m ((c : Thread nD τ).loc main_arg2) : S4096x512.Idx → EReal) := by
    show StableHlo.after hostOps0 (fun b => m (c, b)) (Proc.devRef .tc main_v3) = _
    after_results
    rfl
  rw [e]

/-- The bias row at (0, o) is the bias at o. -/
theorem biasRow_apply (c : Dev nD) (o : Fin 4096) :
    (V m c main_v4 : S1x4096.Idx → EReal) (ix2 (0 : Fin 1) o)
      = (m ((c : Thread nD τ).loc main_arg3) : S4096.Idx → EReal) (ix1 o) := by
  have e : (V m c main_v4 : S1x4096.Idx → EReal)
      = shapeCast S1x4096 (m ((c : Thread nD τ).loc main_arg3) : S4096.Idx → EReal) shapeCasts_S4096_S1x4096 := by
    show StableHlo.after hostOps0 (fun b => m (c, b)) (Proc.devRef .tc main_v4) = _
    after_results
    rfl
  rw [e]
  refine shapeCast_apply _ _ _ _ ?_
  show (S4096.rowMajor (ix1 o)).val = (S1x4096.rowMajor (ix2 (0 : Fin 1) o)).val
  rw [Shape.rowMajor_val_one, Shape.rowMajor_val_two]
  show o.val = 0 * 4096 + o.val
  omega

/-! ## The result after the reshape back -/

/-- The program's result buffer after the run: the region's output array reshaped to 4 × 2048 × 4096. -/
theorem tail_eq (c : Dev nD) :
    (Pipeline.afterTail₀ cfgs (dats m) 0 (V0 m) [hostOps1] c main_v6 : S4x2048x4096.Idx → EReal)
      = shapeCast S4x2048x4096 (Whole.result m c) shapeCasts_S8192x4096_S4x2048x4096 := by
  unfold Pipeline.afterTail₀
  show StableHlo.after hostOps1 _ (Proc.devRef .tc main_v6) = _
  after_results
  have e : Pipeline.withArrays (cfgs 0).spec c (V0 m c) (fun w => (dats m 0 c).arrAt w (cfgs 0).N)
      (Proc.devRef .tc main_v5) = Whole.result m c :=
    (Pipeline.withArrays_arr spec0 launch0.win.arr_inj c _ _ 4).trans (Whole.array_eq m c)
  rw [e]
  rfl

/-- Entry (b, s, o) of the result is the layer computed through the rank axis. -/
theorem result_apply (c : Dev nD) (b : Fin 4) (s : Fin 2048) (o : Fin 4096) :
    (Pipeline.afterTail₀ cfgs (dats m) 0 (V0 m) [hostOps1] c main_v6 : S4x2048x4096.Idx → EReal) (ix3 b s o)
      = throughRankAt (m ((c : Thread nD τ).loc main_arg0)) (m ((c : Thread nD τ).loc main_arg1))
          (m ((c : Thread nD τ).loc main_arg2)) (m ((c : Thread nD τ).loc main_arg3)) b s o := by
  have hP : b.val * 2048 + s.val < 8192 := by omega
  rw [tail_eq]
  refine (shapeCast_apply (Whole.result m c) shapeCasts_S8192x4096_S4x2048x4096 (ix3 b s o)
    (ix2 ⟨b.val * 2048 + s.val, hP⟩ o) (by
      rw [Shape.rowMajor_val_two, Shape.rowMajor_val_three]
      rfl)).trans ?_
  rw [Whole.result_apply]
  unfold rowsAt throughRankAt
  refine congrArg₂ (· + ·) (Finset.sum_congr rfl fun r _ => congrArg₂ (· * ·)
    (Finset.sum_congr rfl fun d _ => congrArg₂ (· * ·) (flat_apply m c b s d ⟨b.val * 2048 + s.val, hP⟩ rfl)
      (factor_apply m c d r))
    (factorT_apply m c r o)) (biasRow_apply m c o)

/-- For real x, A and B the result is the layer with the weight assembled first. -/
theorem result_eq_dense (c : Dev nD)
    (hx : IsReal (m ((c : Thread nD τ).loc main_arg0) : S4x2048x4096.Idx → EReal))
    (hA : IsReal (m ((c : Thread nD τ).loc main_arg1) : S4096x512.Idx → EReal))
    (hB : IsReal (m ((c : Thread nD τ).loc main_arg2) : S4096x512.Idx → EReal)) :
    (Pipeline.afterTail₀ cfgs (dats m) 0 (V0 m) [hostOps1] c main_v6 : S4x2048x4096.Idx → EReal)
      = dense (m ((c : Thread nD τ).loc main_arg0)) (m ((c : Thread nD τ).loc main_arg1))
          (m ((c : Thread nD τ).loc main_arg2)) (m ((c : Thread nD τ).loc main_arg3)) := by
  funext i
  obtain ⟨b, s, o, rfl⟩ : ∃ (b : Fin 4) (s : Fin 2048) (o : Fin 4096), i = ix3 b s o := ⟨i 0, i 1, i 2, eq_ix3 i⟩
  rw [result_apply]
  exact throughRankAt_eq_denseAt _ _ _ _ hx hA hB b s o

/-! ## The run -/

/-- From a memory whose x, A and B are real-valued: every weakly fair execution terminates with the result at `dense` of
    the four arguments and the arguments unchanged. -/
theorem run (hreal : ∀ c : Dev nD,
      IsReal (m ((c : Thread nD τ).loc main_arg0) : S4x2048x4096.Idx → EReal)
      ∧ IsReal (m ((c : Thread nD τ).loc main_arg1) : S4096x512.Idx → EReal)
      ∧ IsReal (m ((c : Thread nD τ).loc main_arg2) : S4096x512.Idx → EReal)) :
    θ_run defs (onTc (τ := τ) (main (F := Ideal))) ⟨m, fun _ => 0, ρ⟩ (fun r => ∀ c : Dev nD,
      r.2.mem ((c.tc : Thread nD τ).loc main_v6)
        = dense (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans
        (result_eq_dense m c (hreal c).1 (hreal c).2.1 (hreal c).2.2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.ReferenceIsDense.lean ====
/-
  The reference computes the layer with the weight assembled first.

  Its six operations are: B transposed to 512 × 4096; the weight W = A · Bᵀ of 4096 × 4096, W(o, d) = ∑ r, A(o, r) · Bᵀ(r, d);
  the rows contracted with the weight's second axis, ∑ d, x(b, s, d) · W(o, d); the bias broadcast to 1 × 1 × 4096 and then
  over the batch and the sequence; the sum of the two. Read at an entry (b, s, o) through the generated
  read-at-an-index lemmas, each operand is read at the index the operation's dimension numbers name, and the whole is
  ∑ d, x(b, s, d) · (∑ r, A(o, r) · B(d, r)) + bias(o): the function `dense` of the four arguments. Nothing here needs
  the inputs finite: no sum is regrouped.
-/
import proofs.«175026_j15281493639938_2_alg».proof.Proof.Gen.ReferenceIdeal.Read
import proofs.«175026_j15281493639938_2_alg».proof.Proof.LowRankSpec

noncomputable section

open scoped BigOperators

namespace Cert.ReferenceIdeal.RefValue

open Cert.ReferenceIdeal Cert.ReferenceIdeal.Gen Cert.ReferenceIdeal.Read Cert.LowRank
open Idealize.ShloMosaic Idealize.ShloMosaic.ValueIdx

/-- The reference's result array, as a function of its four arguments, is `dense` of them. -/
theorem result_eq (x0 : (⟨S4x2048x4096, .f32⟩ : BufTy).Contents (Elt Ideal))
    (x1 x2 : (⟨S4096x512, .f32⟩ : BufTy).Contents (Elt Ideal)) (x3 : (⟨S4096, .f32⟩ : BufTy).Contents (Elt Ideal)) :
    val_main_v5 (F := Ideal) x0 x1 x2 x3 = dense x0 x1 x2 x3 := by
  funext i
  obtain ⟨b, s, o, rfl⟩ : ∃ (b : Fin 4) (s : Fin 2048) (o : Fin 4096), i = ix3 b s o := ⟨i 0, i 1, i 2, eq_ix3 i⟩
  rw [val_main_v5_apply, val_main_v2_apply, val_main_v4_apply, val_main_v3_apply]
  show (∑ k : Fin 4096, _) + _ = denseAt x0 x1 x2 x3 b s o
  unfold denseAt
  refine congrArg₂ (· + ·) (Finset.sum_congr rfl fun d _ => ?_) ?_
  · -- the row's entry d against the weight's entry (o, d)
    rw [val_main_v1_apply]
    refine congrArg₂ (· * ·) (congrArg x0 ?_) (Finset.sum_congr rfl fun r _ => ?_)
    · exact funext fun a => match a with | ⟨0, _⟩ => rfl | ⟨1, _⟩ => rfl | ⟨2, _⟩ => rfl
    · -- the weight's term r: A(o, r) · Bᵀ(r, d) = A(o, r) · B(d, r)
      rw [val_main_v0_apply]
      refine congrArg₂ (· * ·) (congrArg x1 ?_) (congrArg x2 ?_)
      · exact funext fun a => match a with | ⟨0, _⟩ => rfl | ⟨1, _⟩ => rfl
      · exact funext fun a => match a with | ⟨0, _⟩ => rfl | ⟨1, _⟩ => rfl
  · -- the bias, broadcast twice, read at (b, s, o) is the bias at o
    exact congrArg x3 (funext fun a => match a with | ⟨0, _⟩ => rfl)

end Cert.ReferenceIdeal.RefValue

end
-- ==== Proof.LibFiniteReal.lean ====
/-
  One element of an "every entry is finite" test, read on the extended reals.

  The test compares the absolute value `max x (-x)` with the f32 pattern of `+∞`, strictly. That pattern denotes the
  top element; the absolute value of `-∞` is `+∞`; so the test passes exactly at the reals. Also: the rank-0 shape
  has a single index (what reading a reduction over all axes at "its one result" needs).
-/
import Idealize.ShloMosaic.PureOps.Ideal.Laws

noncomputable section

namespace Cert.Lib.FiniteReal

open Idealize.ShloMosaic

/-- The f32 pattern `0x7F800000` denotes `+∞`. -/
theorem ofBits_inf_f32 : Ideal.ofBits .f32 0x7F800000#32 = ⊤ := by simp [Ideal.ofBits, Ideal.ieee]

/-- An extended real whose absolute value is strictly below the pattern of `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- Conversely every real passes the test. -/
theorem abs_lt_inf_of_real (r : ℝ) :
    Ideal.cmp .olt (max (r : EReal) (-(r : EReal))) (Ideal.ofBits .f32 0x7F800000#32) = 1#1 := by
  rw [ofBits_inf_f32]
  have h : max (r : EReal) (-(r : EReal)) < ⊤ := max_lt (EReal.coe_lt_top r) (by rw [← EReal.coe_neg]; exact EReal.coe_lt_top _)
  simp [Ideal.cmp, h]

/-- The rank-0 shape has exactly one index. -/
theorem subsingleton_idx0 : Subsingleton (⟨0, ![]⟩ : Shape).Idx := ⟨fun _ _ => funext fun d => d.elim0⟩

end Cert.Lib.FiniteReal

end
-- ==== Proof.FiniteInputs.lean ====
/-
  The precondition, read: every entry of every input is a real number.

  The printed precondition is the conjunction of four tests, one per input: the absolute value of every entry, compared
  strictly with the pattern of +∞, reduced by `and` over all axes into a single bit. The whole is 1 exactly when each
  test is 1; a reduction by `and` into one result that is 1 had a 1 at every entry; and an extended real whose absolute
  value is strictly below +∞ is a real. So under the precondition each input array is real-valued.
-/
import proofs.«175026_j15281493639938_2_alg».proof.Proof.Gen.Pre_finite_inputs
import proofs.«175026_j15281493639938_2_alg».proof.Proof.LibFiniteReal
import proofs.«175026_j15281493639938_2_alg».proof.Proof.LowRankSpec
import Idealize.ShloMosaic.Lib.ReduceAll
import Idealize.ShloMosaic.Lib.Affine
import Idealize.ShloMosaic.Lib.ValueIdx
import Idealize.ShloMosaic.PureOps.Ideal

noncomputable section

namespace Cert.Pre_finite_inputs.Real

open Cert.Pre_finite_inputs Cert.LowRank
open Idealize.ShloMosaic Idealize.ShloMosaic.ValueIdx

/-- One test: if "every |entry| < +∞" reduces to 1, every entry is a real. -/
theorem isReal_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) : IsReal x := fun i => by
  haveI : Subsingleton S_.Idx := Cert.Lib.FiniteReal.subsingleton_idx0
  exact Cert.Lib.FiniteReal.real_of_abs_lt_inf (x i) (Host.reduce_andi_all _ _ hr hu ix0 h i)

/-- Under the precondition all four inputs are real-valued. -/
theorem isReal_of_pre (x0 : FVec Ideal S4x2048x4096 .f32) (x1 x2 : FVec Ideal S4096x512 .f32) (x3 : FVec Ideal S4096 .f32)
    (h : fn (F := Ideal) x0 x1 x2 x3 = fun _ => 1#1) : IsReal x0 ∧ IsReal x1 ∧ IsReal x2 ∧ IsReal x3 := by
  have h0 := congrFun h ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨isReal_of_all x0 _ _ _ h0', isReal_of_all x1 _ _ _ h1, isReal_of_all x2 _ _ _ h2, isReal_of_all x3 _ _ _ h3⟩

end Cert.Pre_finite_inputs.Real

end
-- ==== Proof.lean ====
/-
  A low-rank linear layer, out = x · (A · Bᵀ)ᵀ + bias, computed two ways.

  The reference assembles the 4096 × 4096 weight W(o, d) = ∑ r, A(o, r) · B(d, r) and contracts each of the 4 × 2048 rows
  of x with it: out(b, s, o) = ∑ d, x(b, s, d) · W(o, d) + bias(o). The kernel never builds W: over 32 blocks of 256
  flattened rows it multiplies the rows by B (onto the 512-wide rank axis), multiplies the result by Aᵀ and adds the bias
  row: out(b, s, o) = ∑ r, (∑ d, x(b, s, d) · B(d, r)) · A(o, r) + bias(o). On the extended reals the kernel's changes of
  float format are the identity and each product into a zero accumulator is the plain sum, so the two results are the
  double sum of the terms x(b, s, d) · B(d, r) · A(o, r) grouped in two ways; they agree by distributivity and an
  exchange of the sums, which hold because the precondition makes every entry of x, A and B a real number (at an
  infinite entry distributivity fails). The bias is only added on both sides.

  The frames of the two kernel programs are the generated frame runs; the reference's frame is its generated run with
  the result dropped. The idealization rewrote no operation, so `preserves` has nothing to state.
-/
import proofs.«175026_j15281493639938_2_alg».proof.Defs
import proofs.«175026_j15281493639938_2_alg».proof.Proof.Gen.Kernel
import proofs.«175026_j15281493639938_2_alg».proof.Proof.Gen.Kernel.Skeleton
import proofs.«175026_j15281493639938_2_alg».proof.Proof.Gen.Kernel.Launch
import proofs.«175026_j15281493639938_2_alg».proof.Proof.Gen.Kernel.Points
import proofs.«175026_j15281493639938_2_alg».proof.Proof.Gen.Kernel.Frame
import proofs.«175026_j15281493639938_2_alg».proof.Proof.Gen.KernelIdeal
import proofs.«175026_j15281493639938_2_alg».proof.Proof.Gen.KernelIdeal.Skeleton
import proofs.«175026_j15281493639938_2_alg».proof.Proof.Gen.KernelIdeal.Launch
import proofs.«175026_j15281493639938_2_alg».proof.Proof.Gen.KernelIdeal.Points
import proofs.«175026_j15281493639938_2_alg».proof.Proof.Gen.KernelIdeal.Frame
import proofs.«175026_j15281493639938_2_alg».proof.Proof.Gen.ReferenceIdeal
import proofs.«175026_j15281493639938_2_alg».proof.Proof.Gen.ReferenceIdeal.Run
import proofs.«175026_j15281493639938_2_alg».proof.Proof.Gen.ReferenceIdeal.Read
import proofs.«175026_j15281493639938_2_alg».proof.Proof.Gen.Pre_finite_inputs
import proofs.«175026_j15281493639938_2_alg».proof.Proof.KernelResult
import proofs.«175026_j15281493639938_2_alg».proof.Proof.ReferenceIsDense
import proofs.«175026_j15281493639938_2_alg».proof.Proof.FiniteInputs
import Idealize.ShloMosaic.Adequacy
import Idealize.ShloMosaic.Init

noncomputable section

namespace Cert.Proof

open Idealize.ShloMosaic Idealize.ShloMosaic.TcCoe Idealize.SL.Sem Cert.LowRank

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer's output with the weight assembled first, `dense` of the four arguments: the
    reference by reading its operations, the kernel through the rank axis and the law for real data. -/
theorem algebraic : Cert.algebraic_KernelIdeal_ReferenceIdeal := by
  intro m ρ m' ρ' hpre hagree
  have hreal : ∀ c : Dev Cert.KernelIdeal.nD,
      IsReal (m ((c : Thread Cert.KernelIdeal.nD Cert.KernelIdeal.τ).loc Cert.KernelIdeal.main_arg0) : Cert.KernelIdeal.S4x2048x4096.Idx → EReal)
      ∧ IsReal (m ((c : Thread Cert.KernelIdeal.nD Cert.KernelIdeal.τ).loc Cert.KernelIdeal.main_arg1) : Cert.KernelIdeal.S4096x512.Idx → EReal)
      ∧ IsReal (m ((c : Thread Cert.KernelIdeal.nD Cert.KernelIdeal.τ).loc Cert.KernelIdeal.main_arg2) : Cert.KernelIdeal.S4096x512.Idx → EReal) := fun c => by
    obtain ⟨h0, h1, h2, -⟩ := Cert.Pre_finite_inputs.Real.isReal_of_pre _ _ _ _ (hpre c)
    exact ⟨h0, h1, h2⟩
  refine ⟨fun c => dense (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Result.run m ρ hreal, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.result_eq, (hagree c).1,
    (hagree c).2.1, (hagree c).2.2.1, (hagree c).2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_reference, preserves, algebraic⟩

end Cert.Proof

end
